-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x256 .f32) (main_arg1 : IVec S2x640000 32) (main_arg2 : FVec F S640000 .f32) (main_arg3 : FVec F S256x128 .f32) (main_arg4 : FVec F S128 .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x256 : Shape := ⟨2, ![40000, 256]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S40000x128 : Shape := ⟨2, ![40000, 128]⟩
abbrev S2000x256 : Shape := ⟨2, ![2000, 256]⟩
abbrev S2000x128 : Shape := ⟨2, ![2000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 28
  | .vmem => 10
  | .smem => 0
  | _ => 0

abbrev bufTy : (tb : Table) → Fin (tcTables nBuf tb) → BufTy
  | .hbm, ⟨0, _⟩ => ⟨S40000x256, .f32⟩
  | .hbm, ⟨1, _⟩ => ⟨S2x640000, .i32⟩
  | .hbm, ⟨2, _⟩ => ⟨S640000, .f32⟩
  | .hbm, ⟨3, _⟩ => ⟨S256x128, .f32⟩
  | .hbm, ⟨4, _⟩ => ⟨S128, .f32⟩
  | .hbm, ⟨5, _⟩ => ⟨S40000x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x1, .f32⟩
  | .hbm, ⟨20, _⟩ => ⟨S640000x128, .f32⟩
  | .hbm, ⟨21, _⟩ => ⟨S640000x128, .f32⟩
  | .hbm, ⟨22, _⟩ => ⟨S_, .f32⟩
  | .hbm, ⟨23, _⟩ => ⟨S40000x128, .f32⟩
  | .hbm, ⟨24, _⟩ => ⟨S640000x1, .i32⟩
  | .hbm, ⟨25, _⟩ => ⟨S40000x128, .f32⟩
  | .hbm, ⟨26, _⟩ => ⟨S1x128, .f32⟩
  | .hbm, ⟨27, _⟩ => ⟨S40000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  dot_S2000x256_S256x128_S2000x128_1_0_0_1_n_n_wf : DotDims.WF S2000x256 S256x128 S2000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S40000x256.size a
  hwx0_0 : ∀ i : grid0.Coords, EltTy.bits .f32 = 32 ∨ (Rect.block (s := S40000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S40000x128.size a
  hwx0_2 : ∀ i : grid0.Coords, EltTy.bits .f32 = 32 ∨ (Rect.block (s := S40000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S40000x128.size a
  hwx1_2 : ∀ i : grid1.Coords, EltTy.bits .f32 = 32 ∨ (Rect.block (s := S40000x128) S2000x128.size (cc1_transform_2 i) (hinb1_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S40000x256 : Shape := ⟨2, ![40000, 256]⟩
abbrev S2x640000 : Shape := ⟨2, ![2, 640000]⟩
abbrev S640000 : Shape := ⟨1, ![640000]⟩
abbrev S256x128 : Shape := ⟨2, ![256, 128]⟩
abbrev S128 : Shape := ⟨1, ![128]⟩
abbrev S40000x128 : Shape := ⟨2, ![40000, 128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S40000x256, .f32⟩
  | .hbm, ⟨1, _⟩ => ⟨S2x640000, .i32⟩
  | .hbm, ⟨2, _⟩ => ⟨S640000, .f32⟩
  | .hbm, ⟨3, _⟩ => ⟨S256x128, .f32⟩
  | .hbm, ⟨4, _⟩ => ⟨S128, .f32⟩
  | .hbm, ⟨5, _⟩ => ⟨S40000x128, .f32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S_, .i32⟩
  | .hbm, ⟨11, _⟩ => ⟨S640000, .i32⟩
  | .hbm, ⟨12, _⟩ => ⟨S640000, .i1⟩
  | .hbm, ⟨13, _⟩ => ⟨S_, .i32⟩
  | .hbm, ⟨14, _⟩ => ⟨S640000, .i32⟩
  | .hbm, ⟨15, _⟩ => ⟨S640000, .i32⟩
  | .hbm, ⟨16, _⟩ => ⟨S640000, .i32⟩
  | .hbm, ⟨17, _⟩ => ⟨S640000x1, .i32⟩
  | .hbm, ⟨18, _⟩ => ⟨S640000x128, .f32⟩
  | .hbm, ⟨19, _⟩ => ⟨S640000x1, .f32⟩
  | .hbm, ⟨20, _⟩ => ⟨S640000x128, .f32⟩
  | .hbm, ⟨21, _⟩ => ⟨S640000x128, .f32⟩
  | .hbm, ⟨22, _⟩ => ⟨S_, .f32⟩
  | .hbm, ⟨23, _⟩ => ⟨S40000x128, .f32⟩
  | .hbm, ⟨24, _⟩ => ⟨S640000x1, .i32⟩
  | .hbm, ⟨25, _⟩ => ⟨S40000x128, .f32⟩
  | .hbm, ⟨26, _⟩ => ⟨S1x128, .f32⟩
  | .hbm, ⟨27, _⟩ => ⟨S40000x128, .f32⟩
  | .hbm, ⟨28, _⟩ => ⟨S40000x128, .f32⟩
  | .hbm, ⟨29, _⟩ => ⟨S_, .f32⟩
  | .hbm, ⟨30, _⟩ => ⟨S40000x128, .f32⟩
  | .hbm, ⟨31, _⟩ => ⟨S40000x128, .f32⟩
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  dot_S40000x256_S256x128_S40000x128_1_0_0_1_n_n_wf : DotDims.WF S40000x256 S256x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.KernelRun.lean ====
/-
  The idealized kernel program's run with its result named.

  The program is two kernel regions with a stretch of host operations between them. The library's launch theorem for
  such a program takes the program as a list of segments, a thread state at every segment boundary, and a reading of
  the last thread state against the final memory. The segments, the boundary contents `W0 … W3` and the thread states
  are the generated frame's; what is read off the last state here is, besides the five argument arrays, the result
  array `main_v19`: it ends holding the last boundary's contents `W3` at that buffer.
-/
import proofs.«135131_j48378511622250_1_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the five argument arrays end as launched. -/
theorem run_main : θ_run defs (onTc (τ := τ) (main (F := F))) ⟨m, fun _ => 0, ρ⟩ (fun r => ∀ c : Dev nD,
      r.2.mem ((c.tc : Thread nD τ).loc main_v19) = W3 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v19 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Cert.KernelIdeal.Hand

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Support.lean ====
/-
  What the first kernel region leaves in its result array: the whole matrix product.

  The region runs over 20 grid points. Point `t` stages rows `2000 t … 2000 t + 1999` of the left operand and the whole
  right operand, multiplies them into a zero accumulator (the narrowing to bf16 is the identity on extended reals),
  and writes the `2000 × 128` product back as rows `2000 t …` of the result. Rows of a product are the product of
  the rows, so every block written back is that block of the one array `rowsByCols x w`; the 20 blocks cover the
  result's 40000 rows, so the array after the region is `rowsByCols x w`.
-/
import proofs.«135131_j48378511622250_1_alg».proof.Proof.Gen.KernelIdeal.Frame
import proofs.«135131_j48378511622250_1_alg».proof.Proof.LibPlainDot
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.PlainDot

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value is the product of its two loaded blocks. -/
theorem product_payload (x0 : Vec Ideal S2000x256 .f32) (x1 : Vec Ideal S256x128 .f32) :
    k0_pay1 x0 x1 = rowsByCols x0 x1 := by
  unfold k0_pay1
  exact matmul_zero_eq (φ₁ := .bf16) (φ₂ := .bf16) dot_S2000x256_S256x128_S2000x128_1_0_0_1_n_n rfl none x0 x1

/-- The three index maps over the grid: the left operand's and the result's blocks are at row block `t`, column
    block 0; the right operand's is always the whole array. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `2000 t …` of the array the region finds. -/
theorem left_block (c : Dev nD) (t : Fin cfg0.N) (x : S2000x256.Idx) (k : S40000x256.Idx)
    (hk0 : (k 0).val = 2000 * t.val + (x 0).val) (hk1 : (k 1).val = (x 1).val) :
    (iblk0 V c 0 t : Vec Ideal S2000x256 .f32) x = (V c main_arg0 : S40000x256.Idx → EReal) k := by
  obtain ⟨e0, e1, -⟩ := block_indices t
  unfold iblk0
  rw [View.read_apply]
  show V c main_arg0 _ = V c main_arg0 _
  refine congrArg (V c main_arg0) (funext fun a => Fin.ext ?_)
  match a with
  | ⟨0, _⟩ => show win0_0.index t 0 * 2000 + 1 * (x 0).val = (k 0).val; rw [e0, hk0]; omega
  | ⟨1, _⟩ => show win0_0.index t 1 * 256 + 1 * (x 1).val = (k 1).val; rw [e1, hk1]; omega

/-- The right operand's block at every point is the whole array. -/
theorem right_block (c : Dev nD) (t : Fin cfg0.N) (x : S256x128.Idx) :
    (iblk0 V c 1 t : Vec Ideal S256x128 .f32) x = (V c main_arg3 : S256x128.Idx → EReal) x := by
  obtain ⟨-, -, e0, e1, -⟩ := block_indices t
  unfold iblk0
  rw [View.read_apply]
  show V c main_arg3 _ = V c main_arg3 _
  refine congrArg (V c main_arg3) (funext fun a => Fin.ext ?_)
  match a with
  | ⟨0, _⟩ => show win0_1.index t 0 * 256 + 1 * (x 0).val = (x 0).val; rw [e0]; omega
  | ⟨1, _⟩ => show win0_1.index t 1 * 128 + 1 * (x 1).val = (x 1).val; rw [e1]; omega

/-- What point `t` writes back is block `t` of the whole product. -/
theorem product_flushed (c : Dev nD) (t : Fin cfg0.N) :
    (dat0 V c).flushed 2 t = ((cfg0.win 2).blk t).view.read (Elt Ideal) (rowsByCols (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  rw [product_payload]
  obtain ⟨-, -, -, -, e0, e1⟩ := block_indices t
  funext j
  show rowsByCols (iblk0 V c 0 t) (iblk0 V c 1 t) j = rowsByCols (V c main_arg0) (V c main_arg3) (((cfg0.win 2).blk t).view.emb j)
  refine rowsByCols_congr _ _ _ _ j _ (fun k => ?_) (fun k => ?_)
  · refine left_block V c t _ _ ?_ rfl
    show win0_2.index t 0 * 2000 + 1 * (j 0).val = 2000 * t.val + (j 0).val
    rw [e0]; omega
  · refine (right_block V c t _).trans (congrArg (V c main_arg3) ?_)
    refine funext fun a => Fin.ext ?_
    match a with
    | ⟨0, _⟩ => rfl
    | ⟨1, _⟩ => show (j 1).val = win0_2.index t 1 * 128 + 1 * (j 1).val; rw [e1]; omega

/-- Membership in the result window's block at a point, by coordinates. -/
theorem mem_product_block (t : Fin cfg0.N) (i : S40000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Every row of the result lies in the block of the point `row / 2000`. -/
theorem product_cover (i : S40000x128.Idx) : ∃ t : Fin cfg0.N, (cfg0.win 2).flush t = true ∧ i ∈ ((cfg0.win 2).blk t).view.set := by
  have hi0 : (i 0).val < 40000 := (i 0).isLt
  have hi1 : (i 1).val < 128 := (i 1).isLt
  have hN : cfg0.N = 20 := N_0
  let t : Fin cfg0.N := ⟨(i 0).val / 2000, by rw [hN]; omega⟩
  obtain ⟨-, -, -, -, e0, e1⟩ := block_indices t
  refine ⟨t, flush0_2 t, ?_⟩
  rw [mem_product_block]
  intro a
  match a with
  | ⟨0, _⟩ =>
    show win0_2.index t 0 * 2000 ≤ (i 0).val ∧ (i 0).val < win0_2.index t 0 * 2000 + 2000
    rw [e0]; show (i 0).val / 2000 * 2000 ≤ (i 0).val ∧ (i 0).val < (i 0).val / 2000 * 2000 + 2000; omega
  | ⟨1, _⟩ =>
    show win0_2.index t 1 * 128 ≤ (i 1).val ∧ (i 1).val < win0_2.index t 1 * 128 + 128
    rw [e1]; omega

/-- The result array after the region is the whole product of the two arrays the region finds. -/
theorem product_final (c : Dev nD) : (dat0 V c).arrAt 2 cfg0.N = rowsByCols (V c main_arg0) (V c main_arg3) :=
  (dat0 V c).arrAt_eq_of_cover 2 (rowsByCols (V c main_arg0) (V c main_arg3)) (fun t _ => product_flushed V c t) product_cover

end Cert.KernelIdeal.Hand

end
-- ==== Proof.Middle.lean ====
/-
  The host operations between the two kernel regions, as one function.

  Between the matrix product and the epilogue the program gathers, for every edge, the product's row at the edge's
  source node (a negative index wrapped by adding the node count), scales it by the edge's weight, and adds it into
  the row of the edge's destination node of a zero array. `aggregate s e w` is that chain applied to a product array
  `s`, the edge list `e` and the weights `w`; it is never opened: both programs apply the same chain, so only its
  argument matters. `entry_aggregate` and `entry_bias` read the second region's two input arrays off the memory
  after the stretch: the aggregate of what the first region left, and the bias recast as one row.
-/
import proofs.«135131_j48378511622250_1_alg».proof.Proof.Gen.KernelIdeal.Frame
import Idealize.ShloMosaic.Lib.StableHlo.Run
import Idealize.ShloMosaic.PureOps.Ideal

noncomputable section

namespace Cert.KernelIdeal.Hand

open Cert.KernelIdeal Cert.KernelIdeal.Gen
open Idealize.ShloMosaic Idealize.ShloMosaic.TcCoe Idealize.SL.Sem Idealize.ShloMosaic.StableHlo

/-- Gather the rows of `s` at the edges' sources, scale each by its edge's weight, add into the destinations' rows. -/
def aggregate (s : (⟨S40000x128, .f32⟩ : BufTy).Contents (Elt Ideal)) (e : (⟨S2x640000, .i32⟩ : BufTy).Contents (Elt Ideal))
    (w : (⟨S640000, .f32⟩ : BufTy).Contents (Elt Ideal)) : (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 (shapeCast _ (extractStridedSlice S1x640000 ![1, 0] e slices_S2x640000_S1x640000_1_0) shapeCasts_S1x640000_S640000))
    (mulf (Host.gather gather_S40000x128_S640000x1_S640000x128_1_0_n_n_0_1_1128 s
        (broadcastInDim S640000x1 ![0] bcast_S640000_S640000x1_0
          (select (cmpi .slt (shapeCast _ (extractStridedSlice S1x640000 ![0, 0] e slices_S2x640000_S1x640000_0_0) shapeCasts_S1x640000_S640000) (broadcastInDim S640000 ![] bcast_S_S640000 (constantI S_ 32 0#32)))
            (addi (shapeCast _ (extractStridedSlice S1x640000 ![0, 0] e slices_S2x640000_S1x640000_0_0) shapeCasts_S1x640000_S640000) (broadcastInDim S640000 ![] bcast_S_S640000 (constantI S_ 32 40000#32)))
            (shapeCast _ (extractStridedSlice S1x640000 ![0, 0] e slices_S2x640000_S1x640000_0_0) shapeCasts_S1x640000_S640000))))
      (broadcastInDim S640000x128 ![0, 1] bcast_S640000x1_S640000x128_0_1 (broadcastInDim S640000x1 ![0] bcast_S640000_S640000x1_0 w)))

variable (m : (ℓ : Loc nD τ sig) → Buf (Elt Ideal) ℓ) (ρ : Dev nD → PrngReg)

/-- The second region finds, as its first input array, the aggregate of what the first region left in `main_v0`. -/
theorem entry_aggregate (c : Dev nD) :
    (V2 m ρ c main_v17 : S40000x128.Idx → EReal)
      = aggregate (W1 m ρ c (Proc.devRef .tc main_v0)) (m ((c : Thread nD τ).loc main_arg1)) (m ((c : Thread nD τ).loc main_arg2)) := by
  show StableHlo.after hostOps1 (W1 m ρ c) (Proc.devRef .tc main_v17) = _
  after_results
  rw [show W1 m ρ c (Proc.devRef .tc main_arg1) = m ((c : Thread nD τ).loc main_arg1) from W1_of_ne m ρ c main_arg1 (by decide),
    show W1 m ρ c (Proc.devRef .tc main_arg2) = m ((c : Thread nD τ).loc main_arg2) from W1_of_ne m ρ c main_arg2 (by decide)]
  rfl

/-- … and as its second the bias vector recast as one row. -/
theorem entry_bias (c : Dev nD) :
    (V2 m ρ c main_v18 : S1x128.Idx → EReal) = shapeCast S1x128 (m ((c : Thread nD τ).loc main_arg4)) shapeCasts_S128_S1x128 := by
  show StableHlo.after hostOps1 (W1 m ρ c) (Proc.devRef .tc main_v18) = _
  after_results
  rw [show W1 m ρ c (Proc.devRef .tc main_arg4) = m ((c : Thread nD τ).loc main_arg4) from W1_of_ne m ρ c main_arg4 (by decide)]
  rfl

end Cert.KernelIdeal.Hand

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.LibBiasRect.lean ====
/-
  A bias row added to every row of an array, then rectified (`relu (a + b)`), on the extended reals, for any extents.

  `biasRect a b` is the array whose entry `(p, q)` is `max (a[p,q] + b[0,q]) 0` for a one-row bias `b : [1, c]`;
  `rectified a b` is the same with the bias a vector `b : [c]`. A block of rows of `biasRect a b` is `biasRect` of that
  block of `a` with the same bias row (`biasRect_congr`). The vector form is reached from the row form when the row
  is a recast vector (`biasRect_cast`), and it is what the host spells as a `maximum` of a sum with the vector spread
  `[c] → [1, c] → [n, c]` against a spread zero (`host_rectified`). The zero stays the word `0x00000000` read as a float.
-/
import Idealize.ShloMosaic.Lib.ValueIdx
import Idealize.ShloMosaic.Lib.ValueLayout
import Idealize.ShloMosaic.PureOps.Ideal.Laws
import proofs.«135131_j48378511622250_1_alg».proof.Proof.LibBcastChain

noncomputable section

namespace Cert.Lib.BiasRect

open Idealize.ShloMosaic Idealize.ShloMosaic.ValueIdx

/-- A one-row bias added to every row, then the maximum with zero: entry `(p, q)` is `max (a[p,q] + b[0,q]) 0`. -/
def biasRect {n c : ℕ} (a : (⟨2, ![n, c]⟩ : Shape).Idx → EReal) (b : (⟨2, ![1, c]⟩ : Shape).Idx → EReal) :
    (⟨2, ![n, c]⟩ : Shape).Idx → EReal :=
  fun j => max (a j + b (ix2 (0 : Fin 1) (j 1))) (Ideal.ofBits .f32 0x00000000#32)

/-- The same with the bias a vector: entry `(p, q)` is `max (a[p,q] + b[q]) 0`. -/
def rectified {n c : ℕ} (a : (⟨2, ![n, c]⟩ : Shape).Idx → EReal) (b : (⟨1, ![c]⟩ : Shape).Idx → EReal) :
    (⟨2, ![n, c]⟩ : Shape).Idx → EReal :=
  fun j => max (a j + b (ix1 (j 1))) (Ideal.ofBits .f32 0x00000000#32)

/-- Two such arrays agree at two indices when the entries read there agree: the array's entry and the bias entry of
    the same column. In particular a block of rows of `biasRect a b` is `biasRect` of the block with the same bias. -/
theorem biasRect_congr {n n' c c' : ℕ} (a : (⟨2, ![n, c]⟩ : Shape).Idx → EReal) (b : (⟨2, ![1, c]⟩ : Shape).Idx → EReal)
    (a' : (⟨2, ![n', c']⟩ : Shape).Idx → EReal) (b' : (⟨2, ![1, c']⟩ : Shape).Idx → EReal)
    (j' : (⟨2, ![n', c']⟩ : Shape).Idx) (j : (⟨2, ![n, c]⟩ : Shape).Idx)
    (ha : a' j' = a j) (hb : b' (ix2 (0 : Fin 1) (j' 1)) = b (ix2 (0 : Fin 1) (j 1))) :
    biasRect a' b' j' = biasRect a b j := by
  unfold biasRect
  rw [ha, hb]

/-- With the bias row a recast vector the row form is the vector form. -/
theorem biasRect_cast {n c : ℕ} (a : (⟨2, ![n, c]⟩ : Shape).Idx → EReal) (b : (⟨1, ![c]⟩ : Shape).Idx → EReal)
    (h : (⟨1, ![c]⟩ : Shape).ShapeCasts ⟨2, ![1, c]⟩) :
    biasRect a (shapeCast ⟨2, ![1, c]⟩ b h) = rectified a b := by
  funext j
  unfold biasRect rectified
  rw [shapeCast_a_1a_apply b h (0 : Fin 1) (j 1)]

/-- The host's spelling: the vector spread over the rows by two `broadcast_in_dim`s, added, and the maximum taken with
    a zero spread from a scalar. -/
theorem host_rectified {n c : ℕ} (a : FVec Ideal ⟨2, ![n, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1])
    (h0 : (⟨0, ![]⟩ : Shape).BroadcastsInDim ⟨2, ![n, c]⟩ ![]) :
    maximumf (addf a (broadcastInDim ⟨2, ![n, c]⟩ ![0, 1] h4 (broadcastInDim ⟨2, ![1, c]⟩ ![1] h3 b)))
      (broadcastInDim ⟨2, ![n, c]⟩ ![] h0 (constant (F := Ideal) ⟨0, ![]⟩ .f32 0x00000000#32)) = rectified a b := by
  funext j
  obtain ⟨p, q, rfl⟩ : ∃ (p : Fin n) (q : Fin c), j = ix2 p q := ⟨j 0, j 1, eq_ix2 j⟩
  rw [maximumf_apply, addf_apply, Cert.Lib.BcastChain.overRows_apply b h3 h4 p q,
    Cert.Lib.BcastChain.overAll_apply _ _ h0 (ix2 p q), constant_apply]
  rfl

end Cert.Lib.BiasRect

end
-- ==== Proof.Epilogue.lean ====
/-
  What the second kernel region leaves in its result array: the bias added and the sum rectified, everywhere.

  The region runs over 20 grid points. Point `t` stages rows `2000 t … 2000 t + 1999` of its first input array and
  the whole one-row second input, adds the row to every staged row, takes the maximum with zero, and writes the
  `2000 × 128` block back as rows `2000 t …` of the result. Each entry depends only on the entry at the same
  place and on the bias entry of its column, so every block written back is that block of the one array
  `biasRect a b`; the 20 blocks cover the 40000 rows, so the result array after the region is `biasRect a b`.
-/
import proofs.«135131_j48378511622250_1_alg».proof.Proof.Gen.KernelIdeal.Frame
import proofs.«135131_j48378511622250_1_alg».proof.Proof.LibBiasRect
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Lib.BiasRect

variable (V : (c : Dev nD) → (b : Ref sig .tc) → Buf (Elt Ideal) ((c : Thread nD τ).loc b))

theorem no_offsets : (![0, 0] : Fin 2 → Nat) = fun _ => 0 := funext fun a => by fin_cases a <;> rfl

/-- The body's stored value: the one-row block added to every row of the staged block, then the maximum with zero. -/
theorem epilogue_payload (x0 : Vec Ideal S2000x128 .f32) (x1 : Vec Ideal S1x128 .f32) :
    k1_pay1 x0 x1 = biasRect x0 x1 := by
  funext j
  obtain ⟨p, q, rfl⟩ : ∃ (p : Fin 2000) (q : Fin 128), j = ix2 p q := ⟨j 0, j 1, eq_ix2 j⟩
  unfold k1_pay1 biasRect
  rw [maximumf_apply, addf_apply, shapeCast_self, shapeCast_self, broadcastTo_1b_ab_apply x1 _ p q, broadcast_apply]
  rfl

/-- The three index maps over the grid: the first input's and the result's blocks are at row block `t`, column block
    0; the bias row's is always the whole array. -/
theorem epilogue_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first input's block at point `t` is rows `2000 t …` of the array the region finds. -/
theorem rows_block (c : Dev nD) (t : Fin cfg1.N) (x : S2000x128.Idx) (k : S40000x128.Idx)
    (hk0 : (k 0).val = 2000 * t.val + (x 0).val) (hk1 : (k 1).val = (x 1).val) :
    (iblk1 V c 0 t : Vec Ideal S2000x128 .f32) x = (V c main_v17 : S40000x128.Idx → EReal) k := by
  obtain ⟨e0, e1, -⟩ := epilogue_indices t
  unfold iblk1
  rw [View.read_apply]
  show V c main_v17 _ = V c main_v17 _
  refine congrArg (V c main_v17) (funext fun a => Fin.ext ?_)
  match a with
  | ⟨0, _⟩ => show win1_0.index t 0 * 2000 + 1 * (x 0).val = (k 0).val; rw [e0, hk0]; omega
  | ⟨1, _⟩ => show win1_0.index t 1 * 128 + 1 * (x 1).val = (k 1).val; rw [e1, hk1]; omega

/-- The bias row's block at every point is the whole one-row array. -/
theorem bias_block (c : Dev nD) (t : Fin cfg1.N) (x : S1x128.Idx) :
    (iblk1 V c 1 t : Vec Ideal S1x128 .f32) x = (V c main_v18 : S1x128.Idx → EReal) x := by
  obtain ⟨-, -, e0, e1, -⟩ := epilogue_indices t
  unfold iblk1
  rw [View.read_apply]
  show V c main_v18 _ = V c main_v18 _
  refine congrArg (V c main_v18) (funext fun a => Fin.ext ?_)
  match a with
  | ⟨0, _⟩ => show win1_1.index t 0 * 1 + 1 * (x 0).val = (x 0).val; rw [e0]; omega
  | ⟨1, _⟩ => show win1_1.index t 1 * 128 + 1 * (x 1).val = (x 1).val; rw [e1]; omega

/-- What point `t` writes back is block `t` of the whole rectified array. -/
theorem epilogue_flushed (c : Dev nD) (t : Fin cfg1.N) :
    (dat1 V c).flushed 2 t = ((cfg1.win 2).blk t).view.read (Elt Ideal) (biasRect (V c main_v17) (V c main_v18)) := by
  show (cfg1.win 2).cut (grid1.coords t) ((dat1 V c).after 2 t) = _
  rw [after1_2]
  unfold out1_2
  rw [View.canon_unit_zero no_offsets]
  simp only [View.ld_unit_zero (S := S2000x128) no_offsets, View.ld_unit_zero (S := S1x128) no_offsets]
  rw [epilogue_payload]
  obtain ⟨-, -, -, -, e0, e1⟩ := epilogue_indices t
  funext j
  show biasRect (iblk1 V c 0 t) (iblk1 V c 1 t) j = biasRect (V c main_v17) (V c main_v18) (((cfg1.win 2).blk t).view.emb j)
  refine biasRect_congr _ _ _ _ j _ ?_ ?_
  · refine rows_block V c t _ _ ?_ ?_
    · show win1_2.index t 0 * 2000 + 1 * (j 0).val = 2000 * t.val + (j 0).val
      rw [e0]; omega
    · show win1_2.index t 1 * 128 + 1 * (j 1).val = (j 1).val
      rw [e1]; omega
  · refine (bias_block V c t _).trans (congrArg (V c main_v18) ?_)
    refine funext fun a => Fin.ext ?_
    match a with
    | ⟨0, _⟩ => rfl
    | ⟨1, _⟩ => show (j 1).val = win1_2.index t 1 * 128 + 1 * (j 1).val; rw [e1]; omega

/-- Membership in the result window's block at a point, by coordinates. -/
theorem mem_epilogue_block (t : Fin cfg1.N) (i : S40000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v19).slice (win1_2.rect t)).set ↔ _
  rw [View.set_slice_whole, Rect.mem_set_unit]
  exact Iff.rfl

/-- Every row of the result lies in the block of the point `row / 2000`. -/
theorem epilogue_cover (i : S40000x128.Idx) : ∃ t : Fin cfg1.N, (cfg1.win 2).flush t = true ∧ i ∈ ((cfg1.win 2).blk t).view.set := by
  have hi0 : (i 0).val < 40000 := (i 0).isLt
  have hi1 : (i 1).val < 128 := (i 1).isLt
  have hN : cfg1.N = 20 := N_1
  let t : Fin cfg1.N := ⟨(i 0).val / 2000, by rw [hN]; omega⟩
  obtain ⟨-, -, -, -, e0, e1⟩ := epilogue_indices t
  refine ⟨t, flush1_2 t, ?_⟩
  rw [mem_epilogue_block]
  intro a
  match a with
  | ⟨0, _⟩ =>
    show win1_2.index t 0 * 2000 ≤ (i 0).val ∧ (i 0).val < win1_2.index t 0 * 2000 + 2000
    rw [e0]; show (i 0).val / 2000 * 2000 ≤ (i 0).val ∧ (i 0).val < (i 0).val / 2000 * 2000 + 2000; omega
  | ⟨1, _⟩ =>
    show win1_2.index t 1 * 128 ≤ (i 1).val ∧ (i 1).val < win1_2.index t 1 * 128 + 128
    rw [e1]; omega

/-- The result array after the region is the whole rectified array of the two arrays the region finds. -/
theorem epilogue_final (c : Dev nD) : (dat1 V c).arrAt 2 cfg1.N = biasRect (V c main_v17) (V c main_v18) :=
  (dat1 V c).arrAt_eq_of_cover 2 (biasRect (V c main_v17) (V c main_v18)) (fun t _ => epilogue_flushed V c t) epilogue_cover

end Cert.KernelIdeal.Hand

end
-- ==== Proof.KernelValue.lean ====
/-
  The idealized kernel program's result as one function of its arguments.

  Read backwards from the end: the result array is what the second region leaves, the bias row added to the
  aggregate and rectified; the aggregate is the host chain applied to what the first region left; and that is the
  whole product of the first and fourth arguments. With the bias row a recast of the fifth argument this is
  `rectified (aggregate (x · w) edges weights) b`.
-/
import proofs.«135131_j48378511622250_1_alg».proof.Proof.KernelRun
import proofs.«135131_j48378511622250_1_alg».proof.Proof.Support
import proofs.«135131_j48378511622250_1_alg».proof.Proof.Middle
import proofs.«135131_j48378511622250_1_alg».proof.Proof.Epilogue

noncomputable section

namespace Cert.KernelIdeal.Hand

open Cert.KernelIdeal Cert.KernelIdeal.Gen
open Idealize.ShloMosaic Idealize.ShloMosaic.TcCoe Idealize.SL.Sem
open Cert.Lib.PlainDot Cert.Lib.BiasRect

variable (m : (ℓ : Loc nD τ sig) → Buf (Elt Ideal) ℓ) (ρ : Dev nD → PrngReg)

/-- The kernel program's result, from the launch memory: the product, aggregated over the edges, biased, rectified. -/
def result (c : Dev nD) : S40000x128.Idx → EReal :=
  rectified (aggregate (rowsByCols (m ((c : Thread nD τ).loc main_arg0)) (m ((c : Thread nD τ).loc main_arg3)))
      (m ((c : Thread nD τ).loc main_arg1)) (m ((c : Thread nD τ).loc main_arg2)))
    (m ((c : Thread nD τ).loc main_arg4))

/-- The first region leaves the whole product of the launch memory's first and fourth arguments in `main_v0`. -/
theorem support_eq (c : Dev nD) :
    (W1 m ρ c (Proc.devRef .tc main_v0) : S40000x128.Idx → EReal)
      = rowsByCols (m ((c : Thread nD τ).loc main_arg0)) (m ((c : Thread nD τ).loc main_arg3)) :=
  (W1_arr m ρ c 2).trans (product_final (V0 m ρ) c)

/-- The last boundary's contents at the result buffer are `result`. -/
theorem result_eq (c : Dev nD) : (W3 m ρ c (Proc.devRef .tc main_v19) : S40000x128.Idx → EReal) = result m c := by
  refine (W3_arr m ρ c 2).trans ((epilogue_final (V2 m ρ) c).trans ?_)
  rw [entry_aggregate, entry_bias, support_eq]
  exact biasRect_cast _ _ _

/-- The run, read: the result array at `result`, the arguments unchanged. -/
theorem run : θ_run defs (onTc (τ := τ) (main (F := Ideal))) ⟨m, fun _ => 0, ρ⟩ (fun r => ∀ c : Dev nD,
      r.2.mem ((c.tc : Thread nD τ).loc main_v19) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ c), (h c).2⟩) (run_main m ρ)

end Cert.KernelIdeal.Hand

end
-- ==== Proof.RefValue.lean ====
/-
  The idealized reference's result as the same function of its arguments.

  The reference computes the product `x · w` at once by a `dot_general`, applies the same chain of host operations
  to it (`aggregate`: gather at the edges' sources, scale by the weights, add into the destinations' rows), adds the
  bias vector spread over the rows and takes the maximum with a spread zero. At the exact instance the `dot_general`
  is the product `rowsByCols x w` and the last three operations are `rectified`.
-/
import proofs.«135131_j48378511622250_1_alg».proof.Proof.Gen.ReferenceIdeal.Run
import proofs.«135131_j48378511622250_1_alg».proof.Proof.LibPlainDot
import proofs.«135131_j48378511622250_1_alg».proof.Proof.LibBiasRect
import Idealize.ShloMosaic.PureOps.Ideal

noncomputable section

namespace Cert.ReferenceIdeal.Hand

open Cert.ReferenceIdeal Cert.ReferenceIdeal.Gen
open Idealize.ShloMosaic Idealize.ShloMosaic.TcCoe Idealize.SL.Sem Idealize.ShloMosaic.StableHlo
open Cert.Lib.PlainDot Cert.Lib.BiasRect

/-- Gather the rows of `s` at the edges' sources, scale each by its edge's weight, add into the destinations' rows:
    the reference's own spelling of the chain. -/
def aggregate (s : (⟨S40000x128, .f32⟩ : BufTy).Contents (Elt Ideal)) (e : (⟨S2x640000, .i32⟩ : BufTy).Contents (Elt Ideal))
    (w : (⟨S640000, .f32⟩ : BufTy).Contents (Elt Ideal)) : (⟨S40000x128, .f32⟩ : BufTy).Contents (Elt Ideal) :=
  Host.scatterAdd (F := Ideal) scatter_S40000x128_S640000x1_S640000x128_1_0_0_1
    (broadcastInDim S40000x128 ![] bcast_S_S40000x128 (constant (F := Ideal) S_ .f32 0x00000000#32))
    (broadcastInDim S640000x1 ![0] bcast_S640000_S640000x1_0 (shapeCast _ (extractStridedSlice S1x640000 ![1, 0] e slices_S2x640000_S1x640000_1_0) shapeCasts_S1x640000_S640000))
    (mulf (Host.gather gather_S40000x128_S640000x1_S640000x128_1_0_n_n_0_1_1128 s
        (broadcastInDim S640000x1 ![0] bcast_S640000_S640000x1_0
          (select (cmpi .slt (shapeCast _ (extractStridedSlice S1x640000 ![0, 0] e slices_S2x640000_S1x640000_0_0) shapeCasts_S1x640000_S640000) (broadcastInDim S640000 ![] bcast_S_S640000 (constantI S_ 32 0#32)))
            (addi (shapeCast _ (extractStridedSlice S1x640000 ![0, 0] e slices_S2x640000_S1x640000_0_0) shapeCasts_S1x640000_S640000) (broadcastInDim S640000 ![] bcast_S_S640000 (constantI S_ 32 40000#32)))
            (shapeCast _ (extractStridedSlice S1x640000 ![0, 0] e slices_S2x640000_S1x640000_0_0) shapeCasts_S1x640000_S640000))))
      (broadcastInDim S640000x128 ![0, 1] bcast_S640000x1_S640000x128_0_1 (broadcastInDim S640000x1 ![0] bcast_S640000_S640000x1_0 w)))

/-- The reference's `dot_general` is the whole product. -/
theorem product_eq (x : FVec Ideal S40000x256 .f32) (w : FVec Ideal S256x128 .f32) :
    Host.dotGeneral (F := Ideal) dot_S40000x256_S256x128_S40000x128_1_0_0_1_n_n none x w = rowsByCols x w := by
  simp only [Host.dotGeneral]
  exact dotGeneral_eq dot_S40000x256_S256x128_S40000x128_1_0_0_1_n_n rfl none _ x w

/-- The reference run's result term is `rectified (aggregate (x · w) edges weights) b`. -/
theorem result_eq (x : FVec Ideal S40000x256 .f32) (e : (⟨S2x640000, .i32⟩ : BufTy).Contents (Elt Ideal))
    (ew : FVec Ideal S640000 .f32) (w : FVec Ideal S256x128 .f32) (b : FVec Ideal S128 .f32) :
    maximumf (addf (aggregate (Host.dotGeneral (F := Ideal) dot_S40000x256_S256x128_S40000x128_1_0_0_1_n_n none x w) e ew)
        (broadcastInDim S40000x128 ![0, 1] bcast_S1x128_S40000x128_0_1 (broadcastInDim S1x128 ![1] bcast_S128_S1x128_1 b)))
      (broadcastInDim S40000x128 ![] bcast_S_S40000x128 (constant (F := Ideal) S_ .f32 0x00000000#32))
      = rectified (aggregate (rowsByCols x w) e ew) b := by
  rw [product_eq]
  exact host_rectified _ b bcast_S128_S1x128_1 bcast_S1x128_S40000x128_0_1 bcast_S_S40000x128

end Cert.ReferenceIdeal.Hand

end
-- ==== Proof.lean ====
/-
  A graph-convolution layer, kernel against reference, on the extended reals.

  Both programs compute `relu (A · (x · w) + b)` where `A` is the weighted adjacency of an edge list: the product
  `x · w`, then for every edge the product's row at the edge's source scaled by the edge's weight and added into the
  row of the edge's destination, then the bias added to every row and the maximum with zero.

  The kernel program computes the product in a first kernel region, 2000 rows at a time, its operands narrowed to
  bf16 on the way into the multiplier (the identity on extended reals); runs the gather / scale / scatter-add chain
  on the host; and adds the bias and rectifies in a second kernel region, again 2000 rows at a time. The reference
  computes the product by one `dot_general` and the rest on the host. The two agree because (i) rows of a product are
  the product of the rows, so the first region's 20 blocks are the blocks of the one product; (ii) the host chain in
  the middle is the same operations applied to the same arrays, and is carried as one function, never opened; (iii)
  the epilogue is entrywise in the aggregate and columnwise in the bias, so the second region's 20 blocks are the
  blocks of the one rectified array, whose bias row is the bias vector whether it is recast `[128] → [1, 128]` and
  spread inside the kernel or spread by two `broadcast_in_dim`s on the host. No step uses that the inputs are
  finite: a sum of products is the same sum of products on both sides.

  The ideal pass rewrote nothing, so the kernel's idealization is its own text read at the exact instance.
-/
import proofs.«135131_j48378511622250_1_alg».proof.Defs
import proofs.«135131_j48378511622250_1_alg».proof.Proof.Gen.Kernel
import proofs.«135131_j48378511622250_1_alg».proof.Proof.Gen.Kernel.Frame
import proofs.«135131_j48378511622250_1_alg».proof.Proof.Gen.KernelIdeal
import proofs.«135131_j48378511622250_1_alg».proof.Proof.Gen.KernelIdeal.Frame
import proofs.«135131_j48378511622250_1_alg».proof.Proof.Gen.ReferenceIdeal
import proofs.«135131_j48378511622250_1_alg».proof.Proof.Gen.ReferenceIdeal.Run
import proofs.«135131_j48378511622250_1_alg».proof.Proof.Gen.Pre_finite_inputs
import proofs.«135131_j48378511622250_1_alg».proof.Proof.KernelValue
import proofs.«135131_j48378511622250_1_alg».proof.Proof.RefValue
import Idealize.ShloMosaic.Adequacy
import Idealize.ShloMosaic.Init

noncomputable section

namespace Cert.Proof

open Idealize.ShloMosaic Idealize.ShloMosaic.TcCoe Idealize.SL.Sem

/-- The chain of host operations between the product and the epilogue is spelt with each program's own shape records
    and side conditions; the records hold the same dimension numbers, so the two spellings are one function. -/
theorem aggregate_same (s : (⟨Cert.KernelIdeal.S40000x128, .f32⟩ : BufTy).Contents (Elt Ideal))
    (e : (⟨Cert.KernelIdeal.S2x640000, .i32⟩ : BufTy).Contents (Elt Ideal))
    (w : (⟨Cert.KernelIdeal.S640000, .f32⟩ : BufTy).Contents (Elt Ideal)) :
    Cert.ReferenceIdeal.Hand.aggregate s e w = Cert.KernelIdeal.Hand.aggregate s e w := rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `rectified (aggregate (x · w) edges weights) b` of the arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [a0, a1, a2, a3, a4]
  refine (Cert.ReferenceIdeal.Hand.result_eq _ _ _ _ _).trans ?_
  unfold Cert.KernelIdeal.Hand.result
  rw [aggregate_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
